-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2x600000 : Shape := ⟨2, ![2, 600000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg17 : FVec F S128x128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg14 : FVec F S128 .f32) (main_arg15 : FVec F S128x128 .f32) (main_arg16 : FVec F S128 .f32) (main_arg17 : FVec F S128x128 .f32) (main_arg18 : FVec F S128x128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_v63 main_v67

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128x128 .f32) (main_arg19 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128x128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S100000x128 .f32) (main_arg1 : FVec F S20000x128 .f32) (main_arg2 : IVec S2x600000 32) (main_arg3 : IVec S400000 32) (main_arg4 : IVec S400000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S20000x128 : Shape := ⟨2, ![20000, 128]⟩
abbrev S2x600000 : Shape := ⟨2, ![2, 600000]⟩
abbrev S400000 : Shape := ⟨1, ![400000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S400000x1 : Shape := ⟨2, ![400000, 1]⟩
abbrev S400000x128 : Shape := ⟨2, ![400000, 128]⟩

abbrev nBuf : Space → Nat
  | .hbm => 109
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x600000, .i32⟩
  | .hbm, ⟨3, _⟩ => ⟨S400000, .i32⟩
  | .hbm, ⟨4, _⟩ => ⟨S400000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S100000x128, .f32⟩
  | .hbm, ⟨22, _⟩ => ⟨S1x128, .f32⟩
  | .hbm, ⟨23, _⟩ => ⟨S20000x128, .f32⟩
  | .hbm, ⟨24, _⟩ => ⟨S1x600000, .i32⟩
  | .hbm, ⟨25, _⟩ => ⟨S600000, .i32⟩
  | .hbm, ⟨26, _⟩ => ⟨S1x600000, .i32⟩
  | .hbm, ⟨27, _⟩ => ⟨S600000, .i32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S100000x128, .f32⟩
  | .hbm, ⟨39, _⟩ => ⟨S600000x1, .i32⟩
  | .hbm, ⟨40, _⟩ => ⟨S100000x128, .f32⟩
  | .hbm, ⟨41, _⟩ => ⟨S_, .f32⟩
  | .hbm, ⟨42, _⟩ => ⟨S600000, .f32⟩
  | .hbm, ⟨43, _⟩ => ⟨S_, .f32⟩
  | .hbm, ⟨44, _⟩ => ⟨S100000, .f32⟩
  | .hbm, ⟨45, _⟩ => ⟨S600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S_, .f32⟩
  | .hbm, ⟨67, _⟩ => ⟨S600000, .f32⟩
  | .hbm, ⟨68, _⟩ => ⟨S_, .f32⟩
  | .hbm, ⟨69, _⟩ => ⟨S100000, .f32⟩
  | .hbm, ⟨70, _⟩ => ⟨S600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S400000, .i32⟩
  | .hbm, ⟨80, _⟩ => ⟨S400000, .i1⟩
  | .hbm, ⟨81, _⟩ => ⟨S_, .i32⟩
  | .hbm, ⟨82, _⟩ => ⟨S400000, .i32⟩
  | .hbm, ⟨83, _⟩ => ⟨S400000, .i32⟩
  | .hbm, ⟨84, _⟩ => ⟨S400000, .i32⟩
  | .hbm, ⟨85, _⟩ => ⟨S400000x1, .i32⟩
  | .hbm, ⟨86, _⟩ => ⟨S400000x128, .f32⟩
  | .hbm, ⟨87, _⟩ => ⟨S_, .f32⟩
  | .hbm, ⟨88, _⟩ => ⟨S100000x128, .f32⟩
  | .hbm, ⟨89, _⟩ => ⟨S400000x1, .i32⟩
  | .hbm, ⟨90, _⟩ => ⟨S100000x128, .f32⟩
  | .hbm, ⟨91, _⟩ => ⟨S_, .f32⟩
  | .hbm, ⟨92, _⟩ => ⟨S400000, .f32⟩
  | .hbm, ⟨93, _⟩ => ⟨S_, .f32⟩
  | .hbm, ⟨94, _⟩ => ⟨S100000, .f32⟩
  | .hbm, ⟨95, _⟩ => ⟨S400000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc2_stg14_0 : Ref sig .tc := ⟨.vmem, 30, rfl⟩
abbrev cc2_stg15_0 : Ref sig .tc := ⟨.vmem, 31, rfl⟩
abbrev cc2_stg15_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29
abbrev cc2_sem14_0 : DmaSem sig := 30
abbrev cc2_sem15_0 : DmaSem sig := 31
abbrev cc2_sem15_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S20000x128_S400000x1_S400000x128_1_0_n_n_0_1_1128_wf : GatherDims.WF S20000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x128.size a ≤ S100000x128.size a
  hwx2_15 : ∀ i : grid2.Coords, EltTy.bits .f32 = 32 ∨ (Rect.block (s := S100000x128) S2000x128.size (cc2_transform_15 i) (hinb2_15 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v67) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg15) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v68) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg17) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg18) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v69) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v70) S2000x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2x600000 : Shape := ⟨2, ![2, 600000]⟩
abbrev S400000 : Shape := ⟨1, ![400000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S400000x1 : Shape := ⟨2, ![400000, 1]⟩
abbrev S400000x128 : Shape := ⟨2, ![400000, 128]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S20000x128, .f32⟩
  | 2 => ⟨S2x600000, .i32⟩
  | 3 => ⟨S400000, .i32⟩
  | 4 => ⟨S400000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S20000x128, .f32⟩
  | 28 => ⟨S1x128, .f32⟩
  | 29 => ⟨S20000x128, .f32⟩
  | 30 => ⟨S20000x128, .f32⟩
  | 31 => ⟨S_, .f32⟩
  | 32 => ⟨S20000x128, .f32⟩
  | 33 => ⟨S20000x128, .f32⟩
  | 34 => ⟨S1x600000, .i32⟩
  | 35 => ⟨S600000, .i32⟩
  | 36 => ⟨S1x600000, .i32⟩
  | 37 => ⟨S600000, .i32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S_, .f32⟩
  | 52 => ⟨S600000, .f32⟩
  | 53 => ⟨S_, .f32⟩
  | 54 => ⟨S100000, .f32⟩
  | 55 => ⟨S600000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S100000x128, .f32⟩
  | 74 => ⟨S600000x1, .i32⟩
  | 75 => ⟨S100000x128, .f32⟩
  | 76 => ⟨S_, .f32⟩
  | 77 => ⟨S600000, .f32⟩
  | 78 => ⟨S_, .f32⟩
  | 79 => ⟨S100000, .f32⟩
  | 80 => ⟨S600000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S_, .f32⟩
  | 118 => ⟨S100000x128, .f32⟩
  | 119 => ⟨S400000x1, .i32⟩
  | 120 => ⟨S100000x128, .f32⟩
  | 121 => ⟨S_, .f32⟩
  | 122 => ⟨S400000, .f32⟩
  | 123 => ⟨S_, .f32⟩
  | 124 => ⟨S100000, .f32⟩
  | 125 => ⟨S400000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_4 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_11 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_12 : Ref sig .tc := ⟨.hbm, 108, rfl⟩
abbrev main_v70 : Ref sig .tc := ⟨.hbm, 109, rfl⟩
abbrev main_v71 : Ref sig .tc := ⟨.hbm, 110, rfl⟩
abbrev main_c_13 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_15 : Ref sig .tc := ⟨.hbm, 121, rfl⟩
abbrev main_v80 : Ref sig .tc := ⟨.hbm, 122, rfl⟩
abbrev main_cst_16 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_18 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call2_cst : Ref sig .tc := ⟨.hbm, 144, rfl⟩
abbrev main_call2_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  dot_S100000x128_S128x128_S100000x128_1_0_0_1_n_n_wf : DotDims.WF S100000x128 S128x128 S100000x128 [1] [0] [0] [1] [] []
  dot_S20000x128_S128x128_S20000x128_1_0_0_1_n_n_wf : DotDims.WF S20000x128 S128x128 S20000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S20000x128_S400000x1_S400000x128_1_0_n_n_0_1_1128_wf : GatherDims.WF S20000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf

class Facts : Prop extends Facts₀ where

variable [Facts]
-- ==== Proof.KernelRun.lean ====
/-
  The idealized kernel's run, with every buffer named.

  The program is three kernel regions among stretches of host operations.  Its run is read segment by segment: a
  stretch of host operations takes the buffers to the operations' results, a region takes each of its arrays to what
  its write-backs leave.  Folding these from the launch memory gives the contents `W6` of every buffer at the return,
  and every weakly fair execution terminates, without a fault, in a memory that agrees with `W6` on every buffer that
  outlives the kernels.  The frame claim keeps only the argument arrays of this; the value claim needs the result too,
  so the run is stated here for all of them.
-/
import proofs.«150432_j85822036509302_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a memory whose every buffer that
    outlives the kernels holds the folded contents `W6`: the segments' run from the launch, the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, keeping the result array (at the fold's contents of the last region's output) and the argument
    arrays (unchanged: no host operation and no region writes one). -/
theorem run_named : θ_run defs (onTc (τ := τ) (main (F := F))) ⟨m, fun _ => 0, ρ⟩ (fun r => ∀ c : Dev nD,
      r.2.mem ((c.tc : Thread nD τ).loc main_v70) = W6 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v70 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c)⟩)
    (run_all m ρ)

end Cert.KernelIdeal.Hand

end
-- ==== Proof.Rows.lean ====
/-
  One row of the network, as exact arithmetic on the extended reals.

  Every output entry of this graph layer depends on ONE row of each node-feature matrix: a linear layer sends the
  row `x` to `x · W + b`, and every later step (the half-weighted sum of the three target-to-target terms, the
  context-to-target term, the mean of the two edge types, the skip connection, the rectifier, the output projection)
  is again row-wise.  So both programs are compared through functions of rows: `preRow` (the per-type input
  transform followed by the rectifier) and `fuseRow` (everything after the neighbourhood means).  A sum over the
  128 features is written as a sum over `Fin 128`; the two literals (0 and 1/2) are kept as their binary words, the
  same words in both programs, and are never evaluated.
-/
import Idealize.ShloMosaic.PureOps.Ideal
import Idealize.ShloMosaic.Lib.ValueIdx

noncomputable section

namespace Cert.Rows

open Idealize.ShloMosaic Idealize.ShloMosaic.ValueIdx

/-- A 128 × 128 weight matrix, by index. -/
abbrev Mat : Type := (⟨2, ![128, 128]⟩ : Shape).Idx → EReal

/-- An `n × 128` feature matrix, by index. -/
abbrev Feat (n : Nat) : Type := (⟨2, ![n, 128]⟩ : Shape).Idx → EReal

/-- The float word of 0. -/
def zero : EReal := Ideal.ofBits .f32 0x00000000#32
/-- The float word of 1/2. -/
def half : EReal := Ideal.ofBits .f32 0x3F000000#32

/-- A row times a matrix: entry `q` of `x · W`. -/
def lin (xr : Fin 128 → EReal) (W : Mat) (q : Fin 128) : EReal := ∑ k : Fin 128, xr k * W (ix2 k q)

/-- Entry `q` of `relu (x · W + b)`. -/
def preRow (xr : Fin 128 → EReal) (W : Mat) (b : Fin 128 → EReal) (q : Fin 128) : EReal :=
  max (lin xr W q + b q) zero

/-- Entry `k` of the hidden row: with `x` the node's own row and `s`, `d`, `c` the rows of its three neighbourhood
    means, `relu (((x·W₁+b₁ + ½(s·W₂+b₂)) + ½(d·W₃+b₃) + ((c·W₄+b₄) + x·W₅)) · ½ + x)`, in exactly this grouping. -/
def hidRow (xr sr dr cr : Fin 128 → EReal) (W1 : Mat) (b1 : Fin 128 → EReal) (W2 : Mat) (b2 : Fin 128 → EReal)
    (W3 : Mat) (b3 : Fin 128 → EReal) (W4 : Mat) (b4 : Fin 128 → EReal) (W5 : Mat) (k : Fin 128) : EReal :=
  max (((((lin xr W1 k + b1 k) + half * (lin sr W2 k + b2 k)) + half * (lin dr W3 k + b3 k))
      + ((lin cr W4 k + b4 k) + lin xr W5 k)) * half + xr k) zero

/-- Entry `q` of the output row: the hidden row through the last linear layer. -/
def fuseRow (xr sr dr cr : Fin 128 → EReal) (W1 : Mat) (b1 : Fin 128 → EReal) (W2 : Mat) (b2 : Fin 128 → EReal)
    (W3 : Mat) (b3 : Fin 128 → EReal) (W4 : Mat) (b4 : Fin 128 → EReal) (W5 : Mat) (W6 : Mat) (b6 : Fin 128 → EReal)
    (q : Fin 128) : EReal :=
  lin (hidRow xr sr dr cr W1 b1 W2 b2 W3 b3 W4 b4 W5) W6 q + b6 q

/-- Row `p` of a feature matrix. -/
def rowOf {n : Nat} (x : Feat n) (p : Fin n) : Fin 128 → EReal := fun k => x (ix2 p k)

/-- The input transform of a whole feature matrix, entry by entry. -/
def preArr {n : Nat} (x : Feat n) (W : Mat) (b : Fin 128 → EReal) : Feat n :=
  fun i => preRow (rowOf x (i 0)) W b (i 1)

/-- The fused stage of whole matrices, entry by entry. -/
def fuseArr {n : Nat} (x s d c : Feat n) (W1 : Mat) (b1 : Fin 128 → EReal) (W2 : Mat) (b2 : Fin 128 → EReal)
    (W3 : Mat) (b3 : Fin 128 → EReal) (W4 : Mat) (b4 : Fin 128 → EReal) (W5 : Mat) (W6 : Mat) (b6 : Fin 128 → EReal) : Feat n :=
  fun i => fuseRow (rowOf x (i 0)) (rowOf s (i 0)) (rowOf d (i 0)) (rowOf c (i 0)) W1 b1 W2 b2 W3 b3 W4 b4 W5 W6 b6 (i 1)

/-- A bias vector read as a function of the feature. -/
def vecOf (b : (⟨1, ![128]⟩ : Shape).Idx → EReal) : Fin 128 → EReal := fun q => b (ix1 q)

/-- A bias kept as a 1 × 128 matrix, read as a function of the feature. -/
def rowVecOf (b : (⟨2, ![1, 128]⟩ : Shape).Idx → EReal) : Fin 128 → EReal := fun q => b (ix2 (0 : Fin 1) q)

end Cert.Rows

end
-- ==== Proof.Payload.lean ====
/-
  The three kernel bodies, entry by entry, as functions of rows.

  Each body works on a block of 2000 rows.  A matrix product into a zero accumulator is, at an entry `(p, q)`, the
  sum over the 128 features of row `p` of the left block times column `q` of the right one; the changes of float
  format around it are the identity on exact values; a bias stored as a 1 × 128 block and broadcast over the rows is
  its entry `(0, q)`.  So entry `(p, q)` of what a body stores is `preRow` (the two input transforms) or `fuseRow`
  (the fused stage) of row `p` of the blocks it loaded.
-/
import proofs.«150432_j85822036509302_1_alg».proof.Proof.Gen.KernelIdeal.Skeleton
import proofs.«150432_j85822036509302_1_alg».proof.Proof.Rows
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.Rows
open Idealize.ShloMosaic Idealize.ShloMosaic.ValueIdx

/-- Which entry of the left block a block product reads, along the rows. -/
theorem mm_lhs0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Which entry of the right block a block product reads, along the columns. -/
theorem mm_rhs1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, at entry `(p, q)`: row `p` of the left block times the right block. -/
theorem mm_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = lin (fun k => l (ix2 p k)) r q := by
  unfold lin
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact mm_lhs0 _ _
      | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl (ix2 p q) _).trans hk
      | ⟨1, _⟩ => exact mm_rhs1 _ _)
  rw [el, er]

/-- A 1 × 128 block broadcast over the 2000 rows, at entry `(p, q)`: its entry `(0, q)`. -/
theorem bias_apply (b : FVec Ideal S1x128 .f32) (p : Fin 2000) (q : Fin 128) :
    broadcastTo S2000x128 b broadcasts_S1x128_S2000x128 (ix2 p q) = rowVecOf b q := by
  exact broadcastTo_apply b broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

section Pointwise
variable {s : Shape} {φ : FTy}
/-- Entry by entry: a sum of blocks. -/
theorem addf_ap (a b : FVec Ideal s φ) (i : s.Idx) : addf a b i = a i + b i := rfl
/-- Entry by entry: a product of blocks. -/
theorem mulf_ap (a b : FVec Ideal s φ) (i : s.Idx) : mulf a b i = a i * b i := rfl
/-- Entry by entry: a maximum of blocks. -/
theorem maxf_ap (a b : FVec Ideal s φ) (i : s.Idx) : maximumf a b i = max (a i) (b i) := rfl
/-- Entry by entry: a change to a narrower float format is the identity on exact values. -/
theorem truncf_ap (ψ : FTy) (a : FVec Ideal s φ) (h : ψ.bits < φ.bits) (i : s.Idx) : truncf ψ a h i = a i := rfl
/-- A change to a narrower float format is the identity on a whole block of exact values. -/
theorem truncf_id (ψ : FTy) (a : FVec Ideal s φ) (h : ψ.bits < φ.bits) : truncf ψ a h = a := rfl
end Pointwise

/-- The first input transform's stored block, entry by entry. -/
theorem pay0_apply (x0 : Vec Ideal S2000x128 .f32) (x1 : Vec Ideal S128x128 .f32) (x2 : Vec Ideal S1x128 .f32) (p : Fin 2000) (q : Fin 128) :
    k0_pay1 x0 x1 x2 (ix2 p q) = preRow (fun k => x0 (ix2 p k)) x1 (rowVecOf x2) q := by
  unfold k0_pay1 preRow
  simp only [addf_ap, maxf_ap, truncf_id, broadcast_apply, shapeCast_self, mm_apply, bias_apply]
  rfl

/-- The second input transform's stored block, entry by entry. -/
theorem pay1_apply (x0 : Vec Ideal S2000x128 .f32) (x1 : Vec Ideal S128x128 .f32) (x2 : Vec Ideal S1x128 .f32) (p : Fin 2000) (q : Fin 128) :
    k1_pay1 x0 x1 x2 (ix2 p q) = preRow (fun k => x0 (ix2 p k)) x1 (rowVecOf x2) q := by
  unfold k1_pay1 preRow
  simp only [addf_ap, maxf_ap, truncf_id, broadcast_apply, shapeCast_self, mm_apply, bias_apply]
  rfl

/-- The fused stage's stored block, entry by entry: `fuseRow` of row `p` of the four feature blocks. -/
theorem pay2_apply (x0 x1 x2 x3 : Vec Ideal S2000x128 .f32) (x4 : Vec Ideal S128x128 .f32) (x5 : Vec Ideal S1x128 .f32)
    (x6 : Vec Ideal S128x128 .f32) (x7 : Vec Ideal S1x128 .f32) (x8 : Vec Ideal S128x128 .f32) (x9 : Vec Ideal S1x128 .f32)
    (x10 : Vec Ideal S128x128 .f32) (x11 : Vec Ideal S1x128 .f32) (x12 x13 : Vec Ideal S128x128 .f32) (x14 : Vec Ideal S1x128 .f32)
    (p : Fin 2000) (q : Fin 128) :
    k2_pay1 (k2_pay2 x0) (k2_pay3 x0) (k2_pay4 x2) (k2_pay5 x3) (k2_pay6 x8) (k2_pay7 x10) (k2_pay8 x12) (k2_pay9 x13)
        (k2_pay10 x0 x4 x5) (k2_pay11 x1 x6) (k2_pay12 x7) x9 x11 x14 (ix2 p q)
      = fuseRow (fun k => x0 (ix2 p k)) (fun k => x1 (ix2 p k)) (fun k => x2 (ix2 p k)) (fun k => x3 (ix2 p k))
          x4 (rowVecOf x5) x6 (rowVecOf x7) x8 (rowVecOf x9) x10 (rowVecOf x11) x12 x13 (rowVecOf x14) q := by
  unfold k2_pay1 k2_pay10 k2_pay11 k2_pay12 k2_pay3 k2_pay2 k2_pay4 k2_pay5 k2_pay6 k2_pay7 k2_pay8 k2_pay9 fuseRow hidRow
  simp only [addf_ap, mulf_ap, maxf_ap, truncf_id, broadcast_apply, shapeCast_self, mm_apply, bias_apply]
  rfl

end Cert.KernelIdeal.Hand

end
-- ==== Proof.Region0.lean ====
/-
  Kernel region 0: the input transform of 100000 rows, 50 blocks of 2000 rows.

  Grid point `t` loads rows `2000 t … 2000 t + 1999` of the feature matrix, the whole weight matrix and the bias kept
  as a 1 × 128 block, and writes back the same rows of the output.  So entry `(p, q)` of the output array after the
  region is `preRow` of row `p` of the feature matrix as the region found it: the block that holds row `p` is block
  `p / 2000`, and the 50 blocks cover all 100000 rows.
-/
import proofs.«150432_j85822036509302_1_alg».proof.Proof.Gen.KernelIdeal.Frame
import proofs.«150432_j85822036509302_1_alg».proof.Proof.Payload

set_option maxRecDepth 16384

noncomputable section

namespace Cert.KernelIdeal.Hand

open Cert.KernelIdeal Cert.KernelIdeal.Gen Cert.Rows
open Idealize.ShloMosaic Idealize.ShloMosaic.TcCoe Idealize.SL.Sem Idealize.ShloMosaic.ValueIdx
open Idealize.ShloMosaic.Pipeline (Dat)

section
variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the feature and output blocks move with the point along the rows, the
    weight and bias blocks stay at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 50 :=
  (by decide +kernel : ∀ t : Fin grid0.N, _)

/-- Every block of rows is some point's. -/
theorem onto0 : ∀ q0 : Fin 50, ∃ t : Fin cfg0.N, win0_3.index t = ![q0.val, 0] :=
  (by decide +kernel : ∀ q0 : Fin 50, ∃ t : Fin grid0.N, win0_3.index t = ![q0.val, 0])

/-- The output array of the region as one function of the arrays the region finds. -/
abbrev out0 (c : Dev nD) : Feat 100000 :=
  preArr (V c main_arg0) (V c main_arg5) (rowVecOf (V c main_v0))

/-- Row `p` of the feature block at point `t` is row `2000 t + p` of the feature matrix. -/
theorem xblk0 (c : Dev nD) (t : Fin cfg0.N) (p : Fin 2000) (k : Fin 128) (P : Fin 100000) (hP : P.val = t.val * 2000 + p.val) :
    iblk0 V c 0 t (ix2 p k) = V c main_arg0 (ix2 P k) := by
  obtain ⟨e0, e1, -⟩ := idx0 t
  show V c main_arg0 (((cfg0.win 0).blk t).view.emb (ix2 p k)) = V c main_arg0 (ix2 P k)
  refine congrArg _ (funext fun a => Fin.ext ?_)
  match a with
  | ⟨0, _⟩ => show win0_0.index t (0 : Fin 2) * 2000 + 1 * p.val = P.val; omega
  | ⟨1, _⟩ => show win0_0.index t (1 : Fin 2) * 128 + 1 * k.val = k.val; omega

/-- The weight block at any point is the whole weight matrix. -/
theorem wblk0 (c : Dev nD) (t : Fin cfg0.N) : iblk0 V c 1 t = V c main_arg5 := by
  obtain ⟨-, -, e2, e3, -⟩ := idx0 t
  funext y
  show V c main_arg5 (((cfg0.win 1).blk t).view.emb y) = V c main_arg5 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block at any point is the whole 1 × 128 bias. -/
theorem bblk0 (c : Dev nD) (t : Fin cfg0.N) : iblk0 V c 2 t = V c main_v0 := by
  obtain ⟨-, -, -, -, e4, e5, -⟩ := idx0 t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of `out0`. -/
theorem flushed0_eq (c : Dev nD) (t : Fin cfg0.N) :
    (dat0 V c).flushed 3 t = ((cfg0.win 3).blk t).view.read (Elt Ideal) (out0 V c) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0, View.ld_unit_zero (S := S1x128) hz0]
  obtain ⟨-, -, -, -, -, -, e6, e7, e8⟩ := idx0 t
  funext j
  obtain ⟨p, q, rfl⟩ : ∃ (p : Fin 2000) (q : Fin 128), j = ix2 p q := ⟨j 0, j 1, eq_ix2 j⟩
  refine (pay0_apply (iblk0 V c 0 t) (iblk0 V c 1 t) (iblk0 V c 2 t) p q).trans ?_
  have hP : t.val * 2000 + p.val < 100000 := by have := p.isLt; omega
  have hemb : ((cfg0.win 3).blk t).view.emb (ix2 p q) = ix2 (⟨t.val * 2000 + p.val, hP⟩ : Fin 100000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show _ = out0 V c (((cfg0.win 3).blk t).view.emb (ix2 p q))
  rw [hemb, wblk0, bblk0]
  show _ = preRow (rowOf (V c main_arg0) (⟨t.val * 2000 + p.val, hP⟩ : Fin 100000)) (V c main_arg5) (rowVecOf (V c main_v0)) q
  refine congrArg (fun xr => preRow xr (V c main_arg5) (rowVecOf (V c main_v0)) q) (funext fun k => ?_)
  exact xblk0 V c t p k ⟨t.val * 2000 + p.val, hP⟩ rfl

/-- An index of the output array is in point `t`'s block iff each coordinate is in the block's range. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every entry of the output array is in some point's block: row `r` in block `r / 2000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the region. -/
theorem final0 (c : Dev nD) : (dat0 V c).arrAt 3 cfg0.N = out0 V c :=
  (dat0 V c).arrAt_eq_of_cover 3 (out0 V c) (fun t _ => flushed0_eq V c t) (cover0)

end

end Cert.KernelIdeal.Hand

end
-- ==== Proof.Region1.lean ====
/-
  Kernel region 1: the input transform of 20000 rows, 10 blocks of 2000 rows.

  Grid point `t` loads rows `2000 t … 2000 t + 1999` of the feature matrix, the whole weight matrix and the bias kept
  as a 1 × 128 block, and writes back the same rows of the output.  So entry `(p, q)` of the output array after the
  region is `preRow` of row `p` of the feature matrix as the region found it: the block that holds row `p` is block
  `p / 2000`, and the 10 blocks cover all 20000 rows.
-/
import proofs.«150432_j85822036509302_1_alg».proof.Proof.Gen.KernelIdeal.Frame
import proofs.«150432_j85822036509302_1_alg».proof.Proof.Payload

set_option maxRecDepth 16384

noncomputable section

namespace Cert.KernelIdeal.Hand

open Cert.KernelIdeal Cert.KernelIdeal.Gen Cert.Rows
open Idealize.ShloMosaic Idealize.ShloMosaic.TcCoe Idealize.SL.Sem Idealize.ShloMosaic.ValueIdx
open Idealize.ShloMosaic.Pipeline (Dat)

section
variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the feature and output blocks move with the point along the rows, the
    weight and bias blocks stay at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Every block of rows is some point's. -/
theorem onto1 : ∀ q0 : Fin 10, ∃ t : Fin cfg1.N, win1_3.index t = ![q0.val, 0] :=
  (by decide +kernel : ∀ q0 : Fin 10, ∃ t : Fin grid1.N, win1_3.index t = ![q0.val, 0])

/-- The output array of the region as one function of the arrays the region finds. -/
abbrev out1 (c : Dev nD) : Feat 20000 :=
  preArr (V c main_arg1) (V c main_arg7) (rowVecOf (V c main_v2))

/-- Row `p` of the feature block at point `t` is row `2000 t + p` of the feature matrix. -/
theorem xblk1 (c : Dev nD) (t : Fin cfg1.N) (p : Fin 2000) (k : Fin 128) (P : Fin 20000) (hP : P.val = t.val * 2000 + p.val) :
    iblk1 V c 0 t (ix2 p k) = V c main_arg1 (ix2 P k) := by
  obtain ⟨e0, e1, -⟩ := idx1 t
  show V c main_arg1 (((cfg1.win 0).blk t).view.emb (ix2 p k)) = V c main_arg1 (ix2 P k)
  refine congrArg _ (funext fun a => Fin.ext ?_)
  match a with
  | ⟨0, _⟩ => show win1_0.index t (0 : Fin 2) * 2000 + 1 * p.val = P.val; omega
  | ⟨1, _⟩ => show win1_0.index t (1 : Fin 2) * 128 + 1 * k.val = k.val; omega

/-- The weight block at any point is the whole weight matrix. -/
theorem wblk1 (c : Dev nD) (t : Fin cfg1.N) : iblk1 V c 1 t = V c main_arg7 := by
  obtain ⟨-, -, e2, e3, -⟩ := idx1 t
  funext y
  show V c main_arg7 (((cfg1.win 1).blk t).view.emb y) = V c main_arg7 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias block at any point is the whole 1 × 128 bias. -/
theorem bblk1 (c : Dev nD) (t : Fin cfg1.N) : iblk1 V c 2 t = V c main_v2 := by
  obtain ⟨-, -, -, -, e4, e5, -⟩ := idx1 t
  funext y
  show V c main_v2 (((cfg1.win 2).blk t).view.emb y) = V c main_v2 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point `t` writes back is block `t` of `out1`. -/
theorem flushed1_eq (c : Dev nD) (t : Fin cfg1.N) :
    (dat1 V c).flushed 3 t = ((cfg1.win 3).blk t).view.read (Elt Ideal) (out1 V c) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S128x128) hz1, View.ld_unit_zero (S := S1x128) hz1]
  obtain ⟨-, -, -, -, -, -, e6, e7, e8⟩ := idx1 t
  funext j
  obtain ⟨p, q, rfl⟩ : ∃ (p : Fin 2000) (q : Fin 128), j = ix2 p q := ⟨j 0, j 1, eq_ix2 j⟩
  refine (pay1_apply (iblk1 V c 0 t) (iblk1 V c 1 t) (iblk1 V c 2 t) p q).trans ?_
  have hP : t.val * 2000 + p.val < 20000 := by have := p.isLt; omega
  have hemb : ((cfg1.win 3).blk t).view.emb (ix2 p q) = ix2 (⟨t.val * 2000 + p.val, hP⟩ : Fin 20000) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  show _ = out1 V c (((cfg1.win 3).blk t).view.emb (ix2 p q))
  rw [hemb, wblk1, bblk1]
  show _ = preRow (rowOf (V c main_arg1) (⟨t.val * 2000 + p.val, hP⟩ : Fin 20000)) (V c main_arg7) (rowVecOf (V c main_v2)) q
  refine congrArg (fun xr => preRow xr (V c main_arg7) (rowVecOf (V c main_v2)) q) (funext fun k => ?_)
  exact xblk1 V c t p k ⟨t.val * 2000 + p.val, hP⟩ rfl

/-- An index of the output array is in point `t`'s block iff each coordinate is in the block's range. -/
theorem mem_blk1 (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- Every entry of the output array is in some point's block: row `r` in block `r / 2000`. -/
theorem cover1 (i : S20000x128.Idx) : ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, ht⟩ := onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The output array after the region. -/
theorem final1 (c : Dev nD) : (dat1 V c).arrAt 3 cfg1.N = out1 V c :=
  (dat1 V c).arrAt_eq_of_cover 3 (out1 V c) (fun t _ => flushed1_eq V c t) (cover1)

end

end Cert.KernelIdeal.Hand

end
-- ==== Proof.RefPre.lean ====
/-
  The reference's two input transforms, read as functions of rows.

  The reference computes the same network with whole-matrix operations: a product `x · W` of an `n × 128` matrix
  with a 128 × 128 one has entry `(p, q)` equal to the sum over the 128 features of row `p` of `x` times column `q`
  of `W`; a bias vector broadcast over the rows contributes its entry `q`; the rectifier is the maximum with 0.  Read
  entry by entry, the two input transforms are `preArr` of their arguments, and the result is `fuseArr` of the
  transformed target features and of the three neighbourhood means (which are left as the reference computes them:
  both programs take these means by the same gathers, scatter-additions and divisions).
-/
import proofs.«150432_j85822036509302_1_alg».proof.Proof.Gen.ReferenceIdeal.Read
import proofs.«150432_j85822036509302_1_alg».proof.Proof.Rows

noncomputable section

namespace Cert.ReferenceIdeal.RefValue

open Cert.ReferenceIdeal Cert.ReferenceIdeal.Gen Cert.ReferenceIdeal.Read Cert.Rows
open Idealize.ShloMosaic Idealize.ShloMosaic.ValueIdx

/-! ## Which entries each operation reads -/

theorem l_v0 (p : Fin 100000) (q k : Fin 128) : lidx_main_v0 (ix2 p q) k = ix2 p k :=
  funext fun a => Fin.ext (by match a with | ⟨0, _⟩ => rfl | ⟨1, _⟩ => rfl)
theorem r_v0 (p : Fin 100000) (q k : Fin 128) : ridx_main_v0 (ix2 p q) k = ix2 k q :=
  funext fun a => Fin.ext (by match a with | ⟨0, _⟩ => rfl | ⟨1, _⟩ => rfl)
theorem l_v52 (p : Fin 100000) (q k : Fin 128) : lidx_main_v52 (ix2 p q) k = ix2 p k :=
  funext fun a => Fin.ext (by match a with | ⟨0, _⟩ => rfl | ⟨1, _⟩ => rfl)
theorem r_v52 (p : Fin 100000) (q k : Fin 128) : ridx_main_v52 (ix2 p q) k = ix2 k q :=
  funext fun a => Fin.ext (by match a with | ⟨0, _⟩ => rfl | ⟨1, _⟩ => rfl)
theorem l_v56 (p : Fin 100000) (q k : Fin 128) : lidx_main_v56 (ix2 p q) k = ix2 p k :=
  funext fun a => Fin.ext (by match a with | ⟨0, _⟩ => rfl | ⟨1, _⟩ => rfl)
theorem r_v56 (p : Fin 100000) (q k : Fin 128) : ridx_main_v56 (ix2 p q) k = ix2 k q :=
  funext fun a => Fin.ext (by match a with | ⟨0, _⟩ => rfl | ⟨1, _⟩ => rfl)
theorem l_v63 (p : Fin 100000) (q k : Fin 128) : lidx_main_v63 (ix2 p q) k = ix2 p k :=
  funext fun a => Fin.ext (by match a with | ⟨0, _⟩ => rfl | ⟨1, _⟩ => rfl)
theorem r_v63 (p : Fin 100000) (q k : Fin 128) : ridx_main_v63 (ix2 p q) k = ix2 k q :=
  funext fun a => Fin.ext (by match a with | ⟨0, _⟩ => rfl | ⟨1, _⟩ => rfl)
theorem l_v89 (p : Fin 100000) (q k : Fin 128) : lidx_main_v89 (ix2 p q) k = ix2 p k :=
  funext fun a => Fin.ext (by match a with | ⟨0, _⟩ => rfl | ⟨1, _⟩ => rfl)
theorem r_v89 (p : Fin 100000) (q k : Fin 128) : ridx_main_v89 (ix2 p q) k = ix2 k q :=
  funext fun a => Fin.ext (by match a with | ⟨0, _⟩ => rfl | ⟨1, _⟩ => rfl)
theorem l_v93 (p : Fin 100000) (q k : Fin 128) : lidx_main_v93 (ix2 p q) k = ix2 p k :=
  funext fun a => Fin.ext (by match a with | ⟨0, _⟩ => rfl | ⟨1, _⟩ => rfl)
theorem r_v93 (p : Fin 100000) (q k : Fin 128) : ridx_main_v93 (ix2 p q) k = ix2 k q :=
  funext fun a => Fin.ext (by match a with | ⟨0, _⟩ => rfl | ⟨1, _⟩ => rfl)
theorem l_v100 (p : Fin 100000) (q k : Fin 128) : lidx_main_v100 (ix2 p q) k = ix2 p k :=
  funext fun a => Fin.ext (by match a with | ⟨0, _⟩ => rfl | ⟨1, _⟩ => rfl)
theorem r_v100 (p : Fin 100000) (q k : Fin 128) : ridx_main_v100 (ix2 p q) k = ix2 k q :=
  funext fun a => Fin.ext (by match a with | ⟨0, _⟩ => rfl | ⟨1, _⟩ => rfl)
theorem l_v5 (p : Fin 20000) (q k : Fin 128) : lidx_main_v5 (ix2 p q) k = ix2 p k :=
  funext fun a => Fin.ext (by match a with | ⟨0, _⟩ => rfl | ⟨1, _⟩ => rfl)
theorem r_v5 (p : Fin 20000) (q k : Fin 128) : ridx_main_v5 (ix2 p q) k = ix2 k q :=
  funext fun a => Fin.ext (by match a with | ⟨0, _⟩ => rfl | ⟨1, _⟩ => rfl)
theorem b_v2 (p : Fin 100000) (q : Fin 128) : idx_main_v1 (idx_main_v2 (ix2 p q)) = ix1 q :=
  funext fun a => Fin.ext (by match a with | ⟨0, _⟩ => rfl)
theorem b_v7 (p : Fin 20000) (q : Fin 128) : idx_main_v6 (idx_main_v7 (ix2 p q)) = ix1 q :=
  funext fun a => Fin.ext (by match a with | ⟨0, _⟩ => rfl)
theorem b_v54 (p : Fin 100000) (q : Fin 128) : idx_main_v53 (idx_main_v54 (ix2 p q)) = ix1 q :=
  funext fun a => Fin.ext (by match a with | ⟨0, _⟩ => rfl)
theorem b_v58 (p : Fin 100000) (q : Fin 128) : idx_main_v57 (idx_main_v58 (ix2 p q)) = ix1 q :=
  funext fun a => Fin.ext (by match a with | ⟨0, _⟩ => rfl)
theorem b_v65 (p : Fin 100000) (q : Fin 128) : idx_main_v64 (idx_main_v65 (ix2 p q)) = ix1 q :=
  funext fun a => Fin.ext (by match a with | ⟨0, _⟩ => rfl)
theorem b_v91 (p : Fin 100000) (q : Fin 128) : idx_main_v90 (idx_main_v91 (ix2 p q)) = ix1 q :=
  funext fun a => Fin.ext (by match a with | ⟨0, _⟩ => rfl)
theorem b_v102 (p : Fin 100000) (q : Fin 128) : idx_main_v101 (idx_main_v102 (ix2 p q)) = ix1 q :=
  funext fun a => Fin.ext (by match a with | ⟨0, _⟩ => rfl)

/-! ## The two input transforms -/

/-- The transformed target features: `relu (x · W + b)`, entry by entry. -/
theorem pre_target (x0 : (⟨S100000x128, .f32⟩ : BufTy).Contents (Elt Ideal)) (x5 : (⟨S128x128, .f32⟩ : BufTy).Contents (Elt Ideal)) (x6 : (⟨S128, .f32⟩ : BufTy).Contents (Elt Ideal)) :
    val_main_v4 (F := Ideal) x0 x5 x6 = preArr x0 x5 (vecOf x6) := by
  funext i
  obtain ⟨p, q, rfl⟩ : ∃ (p : Fin 100000) (q : Fin 128), i = ix2 p q := ⟨i 0, i 1, eq_ix2 i⟩
  rw [val_main_v4_apply, val_main_v3_apply, val_main_v0_apply, val_main_v2_apply, val_main_v1_apply, val_main_call0_v0_apply, val_main_call0_cst_apply]
  simp only [l_v0, r_v0, b_v2]
  rfl

/-- The transformed context features: `relu (x · W + b)`, entry by entry. -/
theorem pre_context (x1 : (⟨S20000x128, .f32⟩ : BufTy).Contents (Elt Ideal)) (x7 : (⟨S128x128, .f32⟩ : BufTy).Contents (Elt Ideal)) (x8 : (⟨S128, .f32⟩ : BufTy).Contents (Elt Ideal)) :
    val_main_v9 (F := Ideal) x1 x7 x8 = preArr x1 x7 (vecOf x8) := by
  funext i
  obtain ⟨p, q, rfl⟩ : ∃ (p : Fin 20000) (q : Fin 128), i = ix2 p q := ⟨i 0, i 1, eq_ix2 i⟩
  rw [val_main_v9_apply, val_main_v8_apply, val_main_v5_apply, val_main_v7_apply, val_main_v6_apply, val_main_call1_v0_apply, val_main_call1_cst_apply]
  simp only [l_v5, r_v5, b_v7]
  rfl

end Cert.ReferenceIdeal.RefValue

end
-- ==== Proof.KernelPre.lean ====
/-
  The first two kernel regions' outputs, and the arguments as the later host operations find them.

  The buffers are followed from the launch: a reshape of a bias vector into a 1 × 128 block writes only its own
  result; the first region leaves the transformed target features in its output array, the second the transformed
  context features, both equal to what the reference's first operations compute (`preArr` of the launched arrays);
  neither region and neither reshape touches an argument array or the other region's output.
-/
import proofs.«150432_j85822036509302_1_alg».proof.Proof.Region0
import proofs.«150432_j85822036509302_1_alg».proof.Proof.Region1
import proofs.«150432_j85822036509302_1_alg».proof.Proof.RefPre
import Idealize.ShloMosaic.Lib.ValueLayout
import Idealize.ShloMosaic.Lib.StableHlo.Run

set_option maxRecDepth 16384

noncomputable section

namespace Cert.KernelIdeal.Hand

open Cert.KernelIdeal Cert.KernelIdeal.Gen Cert.Rows
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- A bias vector kept as a 1 × 128 block, read back as a function of the feature, is the vector. -/
theorem rowVecOf_reshape (b : (⟨S128, .f32⟩ : BufTy).Contents (Elt Ideal)) :
    rowVecOf (shapeCast S1x128 b shapeCasts_S128_S1x128) = vecOf b :=
  funext fun q => shapeCast_a_1a_apply b shapeCasts_S128_S1x128 (0 : Fin 1) q

/-! ## The first region: the transformed target features -/

theorem at1_arg0 (c : Dev nD) : V1 m ρ c main_arg0 = m ((c : Thread nD τ).loc main_arg0) := by
  show StableHlo.after hostOps0 (W0 m ρ c) (Proc.devRef .tc main_arg0) = _
  simp only [hostOps0]
  after_results
theorem at1_arg5 (c : Dev nD) : V1 m ρ c main_arg5 = m ((c : Thread nD τ).loc main_arg5) := by
  show StableHlo.after hostOps0 (W0 m ρ c) (Proc.devRef .tc main_arg5) = _
  simp only [hostOps0]
  after_results
theorem at1_v0 (c : Dev nD) : V1 m ρ c main_v0 = shapeCast S1x128 (m ((c : Thread nD τ).loc main_arg6)) shapeCasts_S128_S1x128 := by
  show StableHlo.after hostOps0 (W0 m ρ c) (Proc.devRef .tc main_v0) = _
  simp only [hostOps0]
  after_results
  rfl

/-- After the first region its output array holds the reference's transformed target features. -/
theorem target_feats (c : Dev nD) : W2 m ρ c (Proc.devRef .tc main_v1) = (Cert.ReferenceIdeal.Read.val_main_v4 (F := Ideal) (m ((c : Thread nD τ).loc main_arg0)) (m ((c : Thread nD τ).loc main_arg5)) (m ((c : Thread nD τ).loc main_arg6))) := by
  refine (W2_arr m ρ c 3).trans ((final0 (V1 m ρ) c).trans ?_)
  show preArr (V1 m ρ c main_arg0) (V1 m ρ c main_arg5) (rowVecOf (V1 m ρ c main_v0)) = _
  rw [at1_arg0, at1_arg5, at1_v0, rowVecOf_reshape]
  exact (Cert.ReferenceIdeal.RefValue.pre_target _ _ _).symm

/-! ## The second region: the transformed context features -/

theorem at2_arg (c : Dev nD) (k : Ref sig .tc) (h0 : ∀ w, Pipeline.arrRef spec0 w ≠ k)
    (hk : k ≠ main_v0) :
    W2 m ρ c (Proc.devRef .tc k) = W0 m ρ c (Proc.devRef .tc k) := by
  refine (W2_of_ne m ρ c k h0).trans ?_
  show StableHlo.after hostOps0 (W0 m ρ c) (Proc.devRef .tc k) = _
  simp only [hostOps0, after_cons, after_nil]
  exact reshape_result_ne _ _ _ _ _ _ _ hk

theorem at3_arg1 (c : Dev nD) : V3 m ρ c main_arg1 = m ((c : Thread nD τ).loc main_arg1) := by
  show StableHlo.after hostOps1 (W2 m ρ c) (Proc.devRef .tc main_arg1) = _
  simp only [hostOps1]
  after_results
  exact at2_arg m ρ c main_arg1 (by decide) (by decide)
theorem at3_arg7 (c : Dev nD) : V3 m ρ c main_arg7 = m ((c : Thread nD τ).loc main_arg7) := by
  show StableHlo.after hostOps1 (W2 m ρ c) (Proc.devRef .tc main_arg7) = _
  simp only [hostOps1]
  after_results
  exact at2_arg m ρ c main_arg7 (by decide) (by decide)
theorem at3_v2 (c : Dev nD) : V3 m ρ c main_v2 = shapeCast S1x128 (m ((c : Thread nD τ).loc main_arg8)) shapeCasts_S128_S1x128 := by
  show StableHlo.after hostOps1 (W2 m ρ c) (Proc.devRef .tc main_v2) = _
  simp only [hostOps1]
  after_results
  rw [at2_arg m ρ c main_arg8 (by decide) (by decide)]
  rfl

/-- After the second region its output array holds the reference's transformed context features. -/
theorem context_feats (c : Dev nD) : W4 m ρ c (Proc.devRef .tc main_v3) = (Cert.ReferenceIdeal.Read.val_main_v9 (F := Ideal) (m ((c : Thread nD τ).loc main_arg1)) (m ((c : Thread nD τ).loc main_arg7)) (m ((c : Thread nD τ).loc main_arg8))) := by
  refine (W4_arr m ρ c 3).trans ((final1 (V3 m ρ) c).trans ?_)
  show preArr (V3 m ρ c main_arg1) (V3 m ρ c main_arg7) (rowVecOf (V3 m ρ c main_v2)) = _
  rw [at3_arg1, at3_arg7, at3_v2, rowVecOf_reshape]
  exact (Cert.ReferenceIdeal.RefValue.pre_context _ _ _).symm

/-- The second region and the reshape before it leave the first region's output alone. -/
theorem target_feats4 (c : Dev nD) : W4 m ρ c (Proc.devRef .tc main_v1) = (Cert.ReferenceIdeal.Read.val_main_v4 (F := Ideal) (m ((c : Thread nD τ).loc main_arg0)) (m ((c : Thread nD τ).loc main_arg5)) (m ((c : Thread nD τ).loc main_arg6))) := by
  refine (W4_of_ne m ρ c main_v1 (by decide)).trans ?_
  show StableHlo.after hostOps1 (W2 m ρ c) (Proc.devRef .tc main_v1) = _
  simp only [hostOps1]
  after_results
  exact target_feats m ρ c

/-! ## The arguments as the host operations before the last region find them -/

theorem at4_of (c : Dev nD) (k : Ref sig .tc) (h1 : ∀ w, Pipeline.arrRef spec1 w ≠ k) (h0 : ∀ w, Pipeline.arrRef spec0 w ≠ k)
    (hk1 : k ≠ main_v2) (hk0 : k ≠ main_v0) :
    W4 m ρ c (Proc.devRef .tc k) = W0 m ρ c (Proc.devRef .tc k) := by
  refine (W4_of_ne m ρ c k h1).trans ?_
  show StableHlo.after hostOps1 (W2 m ρ c) (Proc.devRef .tc k) = _
  simp only [hostOps1, after_cons, after_nil]
  refine (reshape_result_ne _ _ _ _ _ _ _ hk1).trans ?_
  exact at2_arg m ρ c k h0 hk0

theorem at4_arg2 (c : Dev nD) : W4 m ρ c (Proc.devRef .tc main_arg2) = m ((c : Thread nD τ).loc main_arg2) :=
  at4_of m ρ c main_arg2 (by decide) (by decide) (by decide) (by decide)
theorem at4_arg3 (c : Dev nD) : W4 m ρ c (Proc.devRef .tc main_arg3) = m ((c : Thread nD τ).loc main_arg3) :=
  at4_of m ρ c main_arg3 (by decide) (by decide) (by decide) (by decide)
theorem at4_arg4 (c : Dev nD) : W4 m ρ c (Proc.devRef .tc main_arg4) = m ((c : Thread nD τ).loc main_arg4) :=
  at4_of m ρ c main_arg4 (by decide) (by decide) (by decide) (by decide)
theorem at4_arg10 (c : Dev nD) : W4 m ρ c (Proc.devRef .tc main_arg10) = m ((c : Thread nD τ).loc main_arg10) :=
  at4_of m ρ c main_arg10 (by decide) (by decide) (by decide) (by decide)
theorem at4_arg12 (c : Dev nD) : W4 m ρ c (Proc.devRef .tc main_arg12) = m ((c : Thread nD τ).loc main_arg12) :=
  at4_of m ρ c main_arg12 (by decide) (by decide) (by decide) (by decide)
theorem at4_arg14 (c : Dev nD) : W4 m ρ c (Proc.devRef .tc main_arg14) = m ((c : Thread nD τ).loc main_arg14) :=
  at4_of m ρ c main_arg14 (by decide) (by decide) (by decide) (by decide)
theorem at4_arg16 (c : Dev nD) : W4 m ρ c (Proc.devRef .tc main_arg16) = m ((c : Thread nD τ).loc main_arg16) :=
  at4_of m ρ c main_arg16 (by decide) (by decide) (by decide) (by decide)
theorem at4_arg19 (c : Dev nD) : W4 m ρ c (Proc.devRef .tc main_arg19) = m ((c : Thread nD τ).loc main_arg19) :=
  at4_of m ρ c main_arg19 (by decide) (by decide) (by decide) (by decide)

end Cert.KernelIdeal.Hand

end
-- ==== Proof.KernelHost.lean ====
/-
  The host operations between the second and the last kernel region.

  They take, for every target node, the mean of its neighbours' transformed features along the three kinds of edges
  (wrap a negative edge index, gather the source rows, scatter-add them into the destination rows, count the
  incoming edges the same way, divide by the count clamped below by 1), and reshape five bias vectors into 1 × 128
  blocks.  They are the reference's operations in the reference's order, applied to arrays already shown equal to the
  reference's, so each mean IS the reference's term of the launched arguments; the means are never opened.
-/
import proofs.«150432_j85822036509302_1_alg».proof.Proof.KernelPre
import proofs.«150432_j85822036509302_1_alg».proof.Proof.Gen.ReferenceIdeal.Read

set_option maxRecDepth 16384

noncomputable section

namespace Cert.KernelIdeal.Hand

open Cert.KernelIdeal Cert.KernelIdeal.Gen Cert.Rows
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The last region's operands -/

/-- Weight matrix 9 reaches the last region as launched. -/
theorem at5_arg9 (c : Dev nD) : V5 m ρ c main_arg9 = m ((c : Thread nD τ).loc main_arg9) :=
  ((W6_arr m ρ c 4).trans (((dat2 (V5 m ρ) c).arrAt_in 4 rfl _).trans (A_eq2 (V5 m ρ) c 4))).symm.trans (W6_main_arg9 m ρ c)

/-- Weight matrix 11 reaches the last region as launched. -/
theorem at5_arg11 (c : Dev nD) : V5 m ρ c main_arg11 = m ((c : Thread nD τ).loc main_arg11) :=
  ((W6_arr m ρ c 6).trans (((dat2 (V5 m ρ) c).arrAt_in 6 rfl _).trans (A_eq2 (V5 m ρ) c 6))).symm.trans (W6_main_arg11 m ρ c)

/-- Weight matrix 13 reaches the last region as launched. -/
theorem at5_arg13 (c : Dev nD) : V5 m ρ c main_arg13 = m ((c : Thread nD τ).loc main_arg13) :=
  ((W6_arr m ρ c 8).trans (((dat2 (V5 m ρ) c).arrAt_in 8 rfl _).trans (A_eq2 (V5 m ρ) c 8))).symm.trans (W6_main_arg13 m ρ c)

/-- Weight matrix 15 reaches the last region as launched. -/
theorem at5_arg15 (c : Dev nD) : V5 m ρ c main_arg15 = m ((c : Thread nD τ).loc main_arg15) :=
  ((W6_arr m ρ c 10).trans (((dat2 (V5 m ρ) c).arrAt_in 10 rfl _).trans (A_eq2 (V5 m ρ) c 10))).symm.trans (W6_main_arg15 m ρ c)

/-- Weight matrix 17 reaches the last region as launched. -/
theorem at5_arg17 (c : Dev nD) : V5 m ρ c main_arg17 = m ((c : Thread nD τ).loc main_arg17) :=
  ((W6_arr m ρ c 12).trans (((dat2 (V5 m ρ) c).arrAt_in 12 rfl _).trans (A_eq2 (V5 m ρ) c 12))).symm.trans (W6_main_arg17 m ρ c)

/-- Weight matrix 18 reaches the last region as launched. -/
theorem at5_arg18 (c : Dev nD) : V5 m ρ c main_arg18 = m ((c : Thread nD τ).loc main_arg18) :=
  ((W6_arr m ρ c 13).trans (((dat2 (V5 m ρ) c).arrAt_in 13 rfl _).trans (A_eq2 (V5 m ρ) c 13))).symm.trans (W6_main_arg18 m ρ c)

set_option maxHeartbeats 8000000 in
/-- Bias 10 reaches the last region as a 1 × 128 block of the launched vector. -/
theorem at5_v65 (c : Dev nD) : rowVecOf (V5 m ρ c main_v65) = vecOf (m ((c : Thread nD τ).loc main_arg10)) := by
  have e : V5 m ρ c main_v65 = shapeCast S1x128 (W4 m ρ c (Proc.devRef .tc main_arg10)) shapeCasts_S128_S1x128 := by
    show StableHlo.after hostOps2 (W4 m ρ c) (Proc.devRef .tc main_v65) = _
    simp only [hostOps2]
    after_results_simp
    rfl
  rw [e, at4_arg10 m ρ c]
  exact rowVecOf_reshape _

set_option maxHeartbeats 8000000 in
/-- Bias 12 reaches the last region as a 1 × 128 block of the launched vector. -/
theorem at5_v66 (c : Dev nD) : rowVecOf (V5 m ρ c main_v66) = vecOf (m ((c : Thread nD τ).loc main_arg12)) := by
  have e : V5 m ρ c main_v66 = shapeCast S1x128 (W4 m ρ c (Proc.devRef .tc main_arg12)) shapeCasts_S128_S1x128 := by
    show StableHlo.after hostOps2 (W4 m ρ c) (Proc.devRef .tc main_v66) = _
    simp only [hostOps2]
    after_results_simp
    rfl
  rw [e, at4_arg12 m ρ c]
  exact rowVecOf_reshape _

set_option maxHeartbeats 8000000 in
/-- Bias 14 reaches the last region as a 1 × 128 block of the launched vector. -/
theorem at5_v67 (c : Dev nD) : rowVecOf (V5 m ρ c main_v67) = vecOf (m ((c : Thread nD τ).loc main_arg14)) := by
  have e : V5 m ρ c main_v67 = shapeCast S1x128 (W4 m ρ c (Proc.devRef .tc main_arg14)) shapeCasts_S128_S1x128 := by
    show StableHlo.after hostOps2 (W4 m ρ c) (Proc.devRef .tc main_v67) = _
    simp only [hostOps2]
    after_results_simp
    rfl
  rw [e, at4_arg14 m ρ c]
  exact rowVecOf_reshape _

set_option maxHeartbeats 8000000 in
/-- Bias 16 reaches the last region as a 1 × 128 block of the launched vector. -/
theorem at5_v68 (c : Dev nD) : rowVecOf (V5 m ρ c main_v68) = vecOf (m ((c : Thread nD τ).loc main_arg16)) := by
  have e : V5 m ρ c main_v68 = shapeCast S1x128 (W4 m ρ c (Proc.devRef .tc main_arg16)) shapeCasts_S128_S1x128 := by
    show StableHlo.after hostOps2 (W4 m ρ c) (Proc.devRef .tc main_v68) = _
    simp only [hostOps2]
    after_results_simp
    rfl
  rw [e, at4_arg16 m ρ c]
  exact rowVecOf_reshape _

set_option maxHeartbeats 8000000 in
/-- Bias 19 reaches the last region as a 1 × 128 block of the launched vector. -/
theorem at5_v69 (c : Dev nD) : rowVecOf (V5 m ρ c main_v69) = vecOf (m ((c : Thread nD τ).loc main_arg19)) := by
  have e : V5 m ρ c main_v69 = shapeCast S1x128 (W4 m ρ c (Proc.devRef .tc main_arg19)) shapeCasts_S128_S1x128 := by
    show StableHlo.after hostOps2 (W4 m ρ c) (Proc.devRef .tc main_v69) = _
    simp only [hostOps2]
    after_results_simp
    rfl
  rw [e, at4_arg19 m ρ c]
  exact rowVecOf_reshape _

set_option maxHeartbeats 8000000 in
/-- The transformed target features reach the last region untouched. -/
theorem at5_v1 (c : Dev nD) : V5 m ρ c main_v1 = (Cert.ReferenceIdeal.Read.val_main_v4 (F := Ideal) (m ((c : Thread nD τ).loc main_arg0)) (m ((c : Thread nD τ).loc main_arg5)) (m ((c : Thread nD τ).loc main_arg6))) := by
  have e : V5 m ρ c main_v1 = W4 m ρ c (Proc.devRef .tc main_v1) := by
    show StableHlo.after hostOps2 (W4 m ρ c) (Proc.devRef .tc main_v1) = _
    simp only [hostOps2]
    after_results_simp
  rw [e, target_feats4]

set_option maxHeartbeats 8000000 in
/-- The mean over incoming target-to-target edges: the reference's term. -/
theorem at5_v26 (c : Dev nD) : V5 m ρ c main_v26 = (Cert.ReferenceIdeal.Read.val_main_v32 (F := Ideal) (m ((c : Thread nD τ).loc main_arg0)) (m ((c : Thread nD τ).loc main_arg2)) (m ((c : Thread nD τ).loc main_arg5)) (m ((c : Thread nD τ).loc main_arg6))) := by
  show StableHlo.after hostOps2 (W4 m ρ c) (Proc.devRef .tc main_v26) = _
  simp only [hostOps2]
  after_results_simp
  rw [target_feats4, at4_arg2]
  rfl

set_option maxHeartbeats 8000000 in
/-- The mean over outgoing target-to-target edges: the reference's term. -/
theorem at5_v45 (c : Dev nD) : V5 m ρ c main_v45 = (Cert.ReferenceIdeal.Read.val_main_v51 (F := Ideal) (m ((c : Thread nD τ).loc main_arg0)) (m ((c : Thread nD τ).loc main_arg2)) (m ((c : Thread nD τ).loc main_arg5)) (m ((c : Thread nD τ).loc main_arg6))) := by
  show StableHlo.after hostOps2 (W4 m ρ c) (Proc.devRef .tc main_v45) = _
  simp only [hostOps2]
  after_results_simp
  rw [target_feats4, at4_arg2]
  rfl

set_option maxHeartbeats 8000000 in
/-- The mean over incoming context-to-target edges: the reference's term. -/
theorem at5_v64 (c : Dev nD) : V5 m ρ c main_v64 = (Cert.ReferenceIdeal.Read.val_main_v88 (F := Ideal) (m ((c : Thread nD τ).loc main_arg1)) (m ((c : Thread nD τ).loc main_arg3)) (m ((c : Thread nD τ).loc main_arg4)) (m ((c : Thread nD τ).loc main_arg7)) (m ((c : Thread nD τ).loc main_arg8))) := by
  show StableHlo.after hostOps2 (W4 m ρ c) (Proc.devRef .tc main_v64) = _
  simp only [hostOps2]
  after_results_simp
  rw [context_feats, at4_arg3, at4_arg4]
  rfl

end Cert.KernelIdeal.Hand

end
-- ==== Proof.Region2.lean ====
/-
  Kernel region 2: the fused stage, 50 blocks of 2000 rows.

  Grid point `t` loads rows `2000 t … 2000 t + 1999` of the four feature matrices (the transformed target features
  and the three neighbourhood means), six whole weight matrices and five biases kept as 1 × 128 blocks, and writes
  back the same rows of the output.  So entry `(p, q)` of the output array after the region is `fuseRow` of row `p`
  of the four matrices as the region found them; the block holding row `p` is block `p / 2000`, and the 50 blocks
  cover all 100000 rows.
-/
import proofs.«150432_j85822036509302_1_alg».proof.Proof.Gen.KernelIdeal.Frame
import proofs.«150432_j85822036509302_1_alg».proof.Proof.Payload

set_option maxRecDepth 16384

noncomputable section

namespace Cert.KernelIdeal.Hand

open Cert.KernelIdeal Cert.KernelIdeal.Gen Cert.Rows
open Idealize.ShloMosaic Idealize.ShloMosaic.TcCoe Idealize.SL.Sem Idealize.ShloMosaic.ValueIdx
open Idealize.ShloMosaic.Pipeline (Dat)

section
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the four feature blocks and the output block move with the point along
    the rows, every weight and bias block stays at the origin. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = 0
    ∧ win2_14.index t (1 : Fin 2) = 0
    ∧ win2_15.index t (0 : Fin 2) = t.val
    ∧ win2_15.index t (1 : Fin 2) = 0
    ∧ t.val < 50 :=
  (by decide +kernel : ∀ t : Fin grid2.N, _)

/-- Every block of rows is some point's. -/
theorem onto2 : ∀ q0 : Fin 50, ∃ t : Fin cfg2.N, win2_15.index t = ![q0.val, 0] :=
  (by decide +kernel : ∀ q0 : Fin 50, ∃ t : Fin grid2.N, win2_15.index t = ![q0.val, 0])

/-- The output array of the region as one function of the arrays the region finds. -/
abbrev out2 (c : Dev nD) : Feat 100000 :=
  fuseArr (V c main_v1) (V c main_v26) (V c main_v45) (V c main_v64)
    (V c main_arg9) (rowVecOf (V c main_v65)) (V c main_arg11) (rowVecOf (V c main_v66))
    (V c main_arg13) (rowVecOf (V c main_v67)) (V c main_arg15) (rowVecOf (V c main_v68))
    (V c main_arg17) (V c main_arg18) (rowVecOf (V c main_v69))

/-- Row `p` of feature block 0 at point `t` is row `2000 t + p` of its array. -/
theorem rblk2_0 (c : Dev nD) (t : Fin cfg2.N) (p : Fin 2000) (k : Fin 128) (P : Fin 100000) (hP : P.val = t.val * 2000 + p.val) :
    iblk2 V c 0 t (ix2 p k) = V c main_v1 (ix2 P k) := by
  obtain ⟨e0, e1, -⟩ := idx2 t
  show V c main_v1 (((cfg2.win 0).blk t).view.emb (ix2 p k)) = V c main_v1 (ix2 P k)
  refine congrArg _ (funext fun a => Fin.ext ?_)
  match a with
  | ⟨0, _⟩ => show win2_0.index t (0 : Fin 2) * 2000 + 1 * p.val = P.val; omega
  | ⟨1, _⟩ => show win2_0.index t (1 : Fin 2) * 128 + 1 * k.val = k.val; omega

/-- Row `p` of feature block 1 at point `t` is row `2000 t + p` of its array. -/
theorem rblk2_1 (c : Dev nD) (t : Fin cfg2.N) (p : Fin 2000) (k : Fin 128) (P : Fin 100000) (hP : P.val = t.val * 2000 + p.val) :
    iblk2 V c 1 t (ix2 p k) = V c main_v26 (ix2 P k) := by
  obtain ⟨-, -, e0, e1, -⟩ := idx2 t
  show V c main_v26 (((cfg2.win 1).blk t).view.emb (ix2 p k)) = V c main_v26 (ix2 P k)
  refine congrArg _ (funext fun a => Fin.ext ?_)
  match a with
  | ⟨0, _⟩ => show win2_1.index t (0 : Fin 2) * 2000 + 1 * p.val = P.val; omega
  | ⟨1, _⟩ => show win2_1.index t (1 : Fin 2) * 128 + 1 * k.val = k.val; omega

/-- Row `p` of feature block 2 at point `t` is row `2000 t + p` of its array. -/
theorem rblk2_2 (c : Dev nD) (t : Fin cfg2.N) (p : Fin 2000) (k : Fin 128) (P : Fin 100000) (hP : P.val = t.val * 2000 + p.val) :
    iblk2 V c 2 t (ix2 p k) = V c main_v45 (ix2 P k) := by
  obtain ⟨-, -, -, -, e0, e1, -⟩ := idx2 t
  show V c main_v45 (((cfg2.win 2).blk t).view.emb (ix2 p k)) = V c main_v45 (ix2 P k)
  refine congrArg _ (funext fun a => Fin.ext ?_)
  match a with
  | ⟨0, _⟩ => show win2_2.index t (0 : Fin 2) * 2000 + 1 * p.val = P.val; omega
  | ⟨1, _⟩ => show win2_2.index t (1 : Fin 2) * 128 + 1 * k.val = k.val; omega

/-- Row `p` of feature block 3 at point `t` is row `2000 t + p` of its array. -/
theorem rblk2_3 (c : Dev nD) (t : Fin cfg2.N) (p : Fin 2000) (k : Fin 128) (P : Fin 100000) (hP : P.val = t.val * 2000 + p.val) :
    iblk2 V c 3 t (ix2 p k) = V c main_v64 (ix2 P k) := by
  obtain ⟨-, -, -, -, -, -, e0, e1, -⟩ := idx2 t
  show V c main_v64 (((cfg2.win 3).blk t).view.emb (ix2 p k)) = V c main_v64 (ix2 P k)
  refine congrArg _ (funext fun a => Fin.ext ?_)
  match a with
  | ⟨0, _⟩ => show win2_3.index t (0 : Fin 2) * 2000 + 1 * p.val = P.val; omega
  | ⟨1, _⟩ => show win2_3.index t (1 : Fin 2) * 128 + 1 * k.val = k.val; omega

/-- Block 4 at any point is its whole array. -/
theorem wblk2_4 (c : Dev nD) (t : Fin cfg2.N) : iblk2 V c 4 t = V c main_arg9 := by
  obtain ⟨-, -, -, -, -, -, -, -, e0, e1, -⟩ := idx2 t
  funext y
  show V c main_arg9 (((cfg2.win 4).blk t).view.emb y) = V c main_arg9 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Block 6 at any point is its whole array. -/
theorem wblk2_6 (c : Dev nD) (t : Fin cfg2.N) : iblk2 V c 6 t = V c main_arg11 := by
  obtain ⟨-, -, -, -, -, -, -, -, -, -, -, -, e0, e1, -⟩ := idx2 t
  funext y
  show V c main_arg11 (((cfg2.win 6).blk t).view.emb y) = V c main_arg11 y
  refine congrArg _ (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- Block 8 at any point is its whole array. -/
theorem wblk2_8 (c : Dev nD) (t : Fin cfg2.N) : iblk2 V c 8 t = V c main_arg13 := by
  obtain ⟨-, -, -, -, -, -, -, -, -, -, -, -, -, -, -, -, e0, e1, -⟩ := idx2 t
  funext y
  show V c main_arg13 (((cfg2.win 8).blk t).view.emb y) = V c main_arg13 y
  refine congrArg _ (funext fun a => Fin.ext ?_)
  match a with
  | ⟨0, _⟩ => show win2_8.index t (0 : Fin 2) * 128 + 1 * (y 0).val = (y 0).val; omega
  | ⟨1, _⟩ => show win2_8.index t (1 : Fin 2) * 128 + 1 * (y 1).val = (y 1).val; omega

/-- Block 10 at any point is its whole array. -/
theorem wblk2_10 (c : Dev nD) (t : Fin cfg2.N) : iblk2 V c 10 t = V c main_arg15 := by
  obtain ⟨-, -, -, -, -, -, -, -, -, -, -, -, -, -, -, -, -, -, -, -, e0, e1, -⟩ := idx2 t
  funext y
  show V c main_arg15 (((cfg2.win 10).blk t).view.emb y) = V c main_arg15 y
  refine congrArg _ (funext fun a => Fin.ext ?_)
  match a with
  | ⟨0, _⟩ => show win2_10.index t (0 : Fin 2) * 128 + 1 * (y 0).val = (y 0).val; omega
  | ⟨1, _⟩ => show win2_10.index t (1 : Fin 2) * 128 + 1 * (y 1).val = (y 1).val; omega

/-- Block 12 at any point is its whole array. -/
theorem wblk2_12 (c : Dev nD) (t : Fin cfg2.N) : iblk2 V c 12 t = V c main_arg17 := by
  obtain ⟨-, -, -, -, -, -, -, -, -, -, -, -, -, -, -, -, -, -, -, -, -, -, -, -, e0, e1, -⟩ := idx2 t
  funext y
  show V c main_arg17 (((cfg2.win 12).blk t).view.emb y) = V c main_arg17 y
  refine congrArg _ (funext fun a => Fin.ext ?_)
  match a with
  | ⟨0, _⟩ => show win2_12.index t (0 : Fin 2) * 128 + 1 * (y 0).val = (y 0).val; omega
  | ⟨1, _⟩ => show win2_12.index t (1 : Fin 2) * 128 + 1 * (y 1).val = (y 1).val; omega

/-- Block 13 at any point is its whole array. -/
theorem wblk2_13 (c : Dev nD) (t : Fin cfg2.N) : iblk2 V c 13 t = V c main_arg18 := by
  obtain ⟨-, -, -, -, -, -, -, -, -, -, -, -, -, -, -, -, -, -, -, -, -, -, -, -, -, -, e0, e1, -⟩ := idx2 t
  funext y
  show V c main_arg18 (((cfg2.win 13).blk t).view.emb y) = V c main_arg18 y
  refine congrArg _ (funext fun a => Fin.ext ?_)
  match a with
  | ⟨0, _⟩ => show win2_13.index t (0 : Fin 2) * 128 + 1 * (y 0).val = (y 0).val; omega
  | ⟨1, _⟩ => show win2_13.index t (1 : Fin 2) * 128 + 1 * (y 1).val = (y 1).val; omega

/-- Block 5 at any point is its whole array. -/
theorem wblk2_5 (c : Dev nD) (t : Fin cfg2.N) : iblk2 V c 5 t = V c main_v65 := by
  obtain ⟨-, -, -, -, -, -, -, -, -, -, e0, e1, -⟩ := idx2 t
  funext y
  show V c main_v65 (((cfg2.win 5).blk t).view.emb y) = V c main_v65 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Block 7 at any point is its whole array. -/
theorem wblk2_7 (c : Dev nD) (t : Fin cfg2.N) : iblk2 V c 7 t = V c main_v66 := by
  obtain ⟨-, -, -, -, -, -, -, -, -, -, -, -, -, -, e0, e1, -⟩ := idx2 t
  funext y
  show V c main_v66 (((cfg2.win 7).blk t).view.emb y) = V c main_v66 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Block 9 at any point is its whole array. -/
theorem wblk2_9 (c : Dev nD) (t : Fin cfg2.N) : iblk2 V c 9 t = V c main_v67 := by
  obtain ⟨-, -, -, -, -, -, -, -, -, -, -, -, -, -, -, -, -, -, e0, e1, -⟩ := idx2 t
  funext y
  show V c main_v67 (((cfg2.win 9).blk t).view.emb y) = V c main_v67 y
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- Block 11 at any point is its whole array. -/
theorem wblk2_11 (c : Dev nD) (t : Fin cfg2.N) : iblk2 V c 11 t = V c main_v68 := by
  obtain ⟨-, -, -, -, -, -, -, -, -, -, -, -, -, -, -, -, -, -, -, -, -, -, e0, e1, -⟩ := idx2 t
  funext y
  show V c main_v68 (((cfg2.win 11).blk t).view.emb y) = V c main_v68 y
  refine congrArg _ (funext fun a => Fin.ext ?_)
  match a with
  | ⟨0, _⟩ => show win2_11.index t (0 : Fin 2) * 1 + 1 * (y 0).val = (y 0).val; omega
  | ⟨1, _⟩ => show win2_11.index t (1 : Fin 2) * 128 + 1 * (y 1).val = (y 1).val; omega

/-- Block 14 at any point is its whole array. -/
theorem wblk2_14 (c : Dev nD) (t : Fin cfg2.N) : iblk2 V c 14 t = V c main_v69 := by
  obtain ⟨-, -, -, -, -, -, -, -, -, -, -, -, -, -, -, -, -, -, -, -, -, -, -, -, -, -, -, -, e0, e1, -⟩ := idx2 t
  funext y
  show V c main_v69 (((cfg2.win 14).blk t).view.emb y) = V c main_v69 y
  refine congrArg _ (funext fun a => Fin.ext ?_)
  match a with
  | ⟨0, _⟩ => show win2_14.index t (0 : Fin 2) * 1 + 1 * (y 0).val = (y 0).val; omega
  | ⟨1, _⟩ => show win2_14.index t (1 : Fin 2) * 128 + 1 * (y 1).val = (y 1).val; omega

/-- What point `t` writes back is block `t` of `out2`. -/
theorem flushed2_eq (c : Dev nD) (t : Fin cfg2.N) :
    (dat2 V c).flushed 15 t = ((cfg2.win 15).blk t).view.read (Elt Ideal) (out2 V c) := by
  show (cfg2.win 15).cut (grid2.coords t) ((dat2 V c).after 15 t) = _
  rw [after2_15]
  unfold out2_15
  rw [View.canon_unit_zero hz2]
  simp only [View.ld_unit_zero (S := S2000x128) hz2, View.ld_unit_zero (S := S128x128) hz2, View.ld_unit_zero (S := S1x128) hz2]
  obtain ⟨-, -, -, -, -, -, -, -, -, -, -, -, -, -, -, -, -, -, -, -, -, -, -, -, -, -, -, -, -, -, e0, e1, e2⟩ := idx2 t
  funext j
  obtain ⟨p, q, rfl⟩ : ∃ (p : Fin 2000) (q : Fin 128), j = ix2 p q := ⟨j 0, j 1, eq_ix2 j⟩
  refine (pay2_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) (iblk2 V c 12 t)
    (iblk2 V c 13 t) (iblk2 V c 14 t) p q).trans ?_
  have hP : t.val * 2000 + p.val < 100000 := by have := p.isLt; omega
  have hemb : ((cfg2.win 15).blk t).view.emb (ix2 p q) = ix2 (⟨t.val * 2000 + p.val, hP⟩ : Fin 100000) q := by
    funext a; apply Fin.ext
    match a with
    | ⟨0, _⟩ => show win2_15.index t (0 : Fin 2) * 2000 + 1 * p.val = t.val * 2000 + p.val; omega
    | ⟨1, _⟩ => show win2_15.index t (1 : Fin 2) * 128 + 1 * q.val = q.val; omega
  show _ = out2 V c (((cfg2.win 15).blk t).view.emb (ix2 p q))
  rw [hemb, wblk2_4, wblk2_5, wblk2_6, wblk2_7, wblk2_8, wblk2_9, wblk2_10, wblk2_11, wblk2_12, wblk2_13, wblk2_14]
  have r0 : (fun k => iblk2 V c 0 t (ix2 p k)) = rowOf (V c main_v1) (⟨t.val * 2000 + p.val, hP⟩ : Fin 100000) :=
    funext fun k => rblk2_0 V c t p k ⟨t.val * 2000 + p.val, hP⟩ rfl
  have r1 : (fun k => iblk2 V c 1 t (ix2 p k)) = rowOf (V c main_v26) (⟨t.val * 2000 + p.val, hP⟩ : Fin 100000) :=
    funext fun k => rblk2_1 V c t p k ⟨t.val * 2000 + p.val, hP⟩ rfl
  have r2 : (fun k => iblk2 V c 2 t (ix2 p k)) = rowOf (V c main_v45) (⟨t.val * 2000 + p.val, hP⟩ : Fin 100000) :=
    funext fun k => rblk2_2 V c t p k ⟨t.val * 2000 + p.val, hP⟩ rfl
  have r3 : (fun k => iblk2 V c 3 t (ix2 p k)) = rowOf (V c main_v64) (⟨t.val * 2000 + p.val, hP⟩ : Fin 100000) :=
    funext fun k => rblk2_3 V c t p k ⟨t.val * 2000 + p.val, hP⟩ rfl
  rw [r0, r1, r2, r3]
  rfl

/-- An index of the output array is in point `t`'s block iff each coordinate is in the block's range. -/
theorem mem_blk2 (t : Fin cfg2.N) (i : S100000x128.Idx) :
    i ∈ ((cfg2.win 15).blk t).view.set ↔ ∀ a : Fin 2, win2_15.index t a * S2000x128.size a ≤ (i a).val ∧ (i a).val < win2_15.index t a * S2000x128.size a + S2000x128.size a := by
  show i ∈ ((View.whole main_v70).slice (win2_15.rect t)).set ↔ _
  rw [View.set_slice_whole, Rect.mem_set_unit]
  exact Iff.rfl

/-- Every entry of the output array is in some point's block: row `r` in block `r / 2000`. -/
theorem cover2 (i : S100000x128.Idx) : ∃ t : Fin cfg2.N, (cfg2.win 15).flush t = true ∧ i ∈ ((cfg2.win 15).blk t).view.set := by
  have hi0 : (i 0).val < 100000 := (i 0).isLt
  have hi1 : (i 1).val < 128 := (i 1).isLt
  obtain ⟨t, ht⟩ := onto2 ⟨(i 0).val / 2000, by omega⟩
  have q0 : win2_15.index t (0 : Fin 2) = (i 0).val / 2000 := congrFun ht 0
  have q1 : win2_15.index t (1 : Fin 2) = 0 := congrFun ht 1
  refine ⟨t, flush2_15 t, ?_⟩
  rw [mem_blk2]
  intro a
  match a with
  | ⟨0, _⟩ => show win2_15.index t (0 : Fin 2) * 2000 ≤ (i 0).val ∧ (i 0).val < win2_15.index t (0 : Fin 2) * 2000 + 2000; omega
  | ⟨1, _⟩ => show win2_15.index t (1 : Fin 2) * 128 ≤ (i 1).val ∧ (i 1).val < win2_15.index t (1 : Fin 2) * 128 + 128; omega

/-- The output array after the region. -/
theorem final2 (c : Dev nD) : (dat2 V c).arrAt 15 cfg2.N = out2 V c :=
  (dat2 V c).arrAt_eq_of_cover 15 (out2 V c) (fun t _ => flushed2_eq V c t) (cover2)

end

end Cert.KernelIdeal.Hand

end
-- ==== Proof.RefFuse.lean ====
/-
  The reference's result, read as a function of rows.

  After the neighbourhood means the reference applies five linear layers with whole-matrix products, combines them
  with the weights 1/2, adds the skip connection, rectifies and applies the output layer.  Entry `(p, k)` of a
  product `y · W` is the sum over the 128 features of row `p` of `y` times column `k` of `W`, and a bias broadcast
  over the rows contributes its entry `k`; so each layer, the hidden activations and the result are, entry by entry,
  the row functions `lin`, `hidRow` and `fuseRow` of the rows of the transformed target features and of the three
  neighbourhood means, which are left as the reference computes them.
-/
import proofs.«150432_j85822036509302_1_alg».proof.Proof.RefPre

noncomputable section

namespace Cert.ReferenceIdeal.RefValue

open Cert.ReferenceIdeal Cert.ReferenceIdeal.Gen Cert.ReferenceIdeal.Read Cert.Rows
open Idealize.ShloMosaic Idealize.ShloMosaic.ValueIdx

/-- One linear layer of the reference, entry by entry. -/
theorem lin_self (x0 : (⟨S100000x128, .f32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal)) (p : Fin 100000) (k : Fin 128) :
    val_main_v55 (F := Ideal) x0 x5 x6 x9 x10 (ix2 p k) = lin (rowOf (val_main_v4 (F := Ideal) x0 x5 x6) p) x9 k + vecOf x10 k := by
  rw [val_main_v55_apply, val_main_v52_apply, val_main_v54_apply, val_main_v53_apply]
  simp only [l_v52, r_v52, b_v54]
  rfl

/-- One linear layer of the reference, entry by entry. -/
theorem lin_s2d (x0 : (⟨S100000x128, .f32⟩ : BufTy).Contents (Elt Ideal)) (x2 : (⟨S2x600000, .i32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (p : Fin 100000) (k : Fin 128) :
    val_main_v59 (F := Ideal) x0 x2 x5 x6 x11 x12 (ix2 p k) = lin (rowOf (val_main_v32 (F := Ideal) x0 x2 x5 x6) p) x11 k + vecOf x12 k := by
  rw [val_main_v59_apply, val_main_v56_apply, val_main_v58_apply, val_main_v57_apply]
  simp only [l_v56, r_v56, b_v58]
  rfl

/-- One linear layer of the reference, entry by entry. -/
theorem lin_d2s (x0 : (⟨S100000x128, .f32⟩ : BufTy).Contents (Elt Ideal)) (x2 : (⟨S2x600000, .i32⟩ : BufTy).Contents (Elt Ideal)) (x5 : (⟨S128x128, .f32⟩ : BufTy).Contents (Elt Ideal)) (x6 : (⟨S128, .f32⟩ : BufTy).Contents (Elt Ideal)) (x13 : (⟨S128x128, .f32⟩ : BufTy).Contents (Elt Ideal)) (x14 : (⟨S128, .f32⟩ : BufTy).Contents (Elt Ideal)) (p : Fin 100000) (k : Fin 128) :
    val_main_v66 (F := Ideal) x0 x2 x5 x6 x13 x14 (ix2 p k) = lin (rowOf (val_main_v51 (F := Ideal) x0 x2 x5 x6) p) x13 k + vecOf x14 k := by
  rw [val_main_v66_apply, val_main_v63_apply, val_main_v65_apply, val_main_v64_apply]
  simp only [l_v63, r_v63, b_v65]
  rfl

/-- One linear layer of the reference, entry by entry. -/
theorem lin_ctl (x1 : (⟨S20000x128, .f32⟩ : BufTy).Contents (Elt Ideal)) (x3 : (⟨S400000, .i32⟩ : BufTy).Contents (Elt Ideal)) (x4 : (⟨S400000, .i32⟩ : BufTy).Contents (Elt Ideal)) (x7 : (⟨S128x128, .f32⟩ : BufTy).Contents (Elt Ideal)) (x8 : (⟨S128, .f32⟩ : BufTy).Contents (Elt Ideal)) (x15 : (⟨S128x128, .f32⟩ : BufTy).Contents (Elt Ideal)) (x16 : (⟨S128, .f32⟩ : BufTy).Contents (Elt Ideal)) (p : Fin 100000) (k : Fin 128) :
    val_main_v92 (F := Ideal) x1 x3 x4 x7 x8 x15 x16 (ix2 p k) = lin (rowOf (val_main_v88 (F := Ideal) x1 x3 x4 x7 x8) p) x15 k + vecOf x16 k := by
  rw [val_main_v92_apply, val_main_v89_apply, val_main_v91_apply, val_main_v90_apply]
  simp only [l_v89, r_v89, b_v91]
  rfl

/-- The root term of the context-to-target layer: a product without bias. -/
theorem lin_ctr (x0 : (⟨S100000x128, .f32⟩ : BufTy).Contents (Elt Ideal)) (x5 : (⟨S128x128, .f32⟩ : BufTy).Contents (Elt Ideal)) (x6 : (⟨S128, .f32⟩ : BufTy).Contents (Elt Ideal)) (x17 : (⟨S128x128, .f32⟩ : BufTy).Contents (Elt Ideal)) (p : Fin 100000) (k : Fin 128) :
    val_main_v93 (F := Ideal) x0 x5 x6 x17 (ix2 p k) = lin (rowOf (val_main_v4 (F := Ideal) x0 x5 x6) p) x17 k := by
  rw [val_main_v93_apply]
  simp only [l_v93, r_v93]
  rfl

/-- The target-to-target term: the self layer plus half of each of the two directed layers. -/
theorem tt_eq (x0 : (⟨S100000x128, .f32⟩ : BufTy).Contents (Elt Ideal)) (x2 : (⟨S2x600000, .i32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (p : Fin 100000) (k : Fin 128) :
    val_main_v69 (F := Ideal) x0 x2 x5 x6 x9 x10 x11 x12 x13 x14 (ix2 p k)
      = ((lin (rowOf (val_main_v4 (F := Ideal) x0 x5 x6) p) x9 k + vecOf x10 k)
          + half * (lin (rowOf (val_main_v32 (F := Ideal) x0 x2 x5 x6) p) x11 k + vecOf x12 k))
          + half * (lin (rowOf (val_main_v51 (F := Ideal) x0 x2 x5 x6) p) x13 k + vecOf x14 k) := by
  rw [val_main_v69_apply, val_main_v62_apply, val_main_v68_apply, val_main_v61_apply, val_main_v67_apply, val_main_v60_apply,
    val_main_cst_11_apply, val_main_cst_10_apply, lin_self, lin_s2d, lin_d2s]
  rfl

/-- The hidden activations: the mean of the two edge types' terms, plus the skip connection, rectified. -/
theorem hid_eq (x0 : (⟨S100000x128, .f32⟩ : BufTy).Contents (Elt Ideal)) (x1 : (⟨S20000x128, .f32⟩ : BufTy).Contents (Elt Ideal)) (x2 : (⟨S2x600000, .i32⟩ : BufTy).Contents (Elt Ideal)) (x3 : (⟨S400000, .i32⟩ : BufTy).Contents (Elt Ideal)) (x4 : (⟨S400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (p : Fin 100000) (k : Fin 128) :
    val_main_v99 (F := Ideal) x0 x1 x2 x3 x4 x5 x6 x7 x8 x9 x10 x11 x12 x13 x14 x15 x16 x17 (ix2 p k)
      = hidRow (rowOf (val_main_v4 (F := Ideal) x0 x5 x6) p) (rowOf (val_main_v32 (F := Ideal) x0 x2 x5 x6) p) (rowOf (val_main_v51 (F := Ideal) x0 x2 x5 x6) p) (rowOf (val_main_v88 (F := Ideal) x1 x3 x4 x7 x8) p)
          x9 (vecOf x10) x11 (vecOf x12) x13 (vecOf x14) x15 (vecOf x16) x17 k := by
  rw [val_main_v99_apply, val_main_v98_apply, val_main_v97_apply, val_main_v95_apply, val_main_v94_apply, val_main_v96_apply,
    val_main_cst_18_apply, val_main_call2_v0_apply, val_main_call2_cst_apply, tt_eq, lin_ctl, lin_ctr]
  rfl

/-- The result, entry by entry: `fuseArr` of the transformed target features and the three neighbourhood means. -/
theorem result_eq (x0 : (⟨S100000x128, .f32⟩ : BufTy).Contents (Elt Ideal)) (x1 : (⟨S20000x128, .f32⟩ : BufTy).Contents (Elt Ideal)) (x2 : (⟨S2x600000, .i32⟩ : BufTy).Contents (Elt Ideal)) (x3 x4 : (⟨S400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) :
    val_main_v103 (F := Ideal) x0 x1 x2 x3 x4 x5 x6 x7 x8 x9 x10 x11 x12 x13 x14 x15 x16 x17 x18 x19
      = fuseArr (val_main_v4 (F := Ideal) x0 x5 x6) (val_main_v32 (F := Ideal) x0 x2 x5 x6) (val_main_v51 (F := Ideal) x0 x2 x5 x6) (val_main_v88 (F := Ideal) x1 x3 x4 x7 x8)
          x9 (vecOf x10) x11 (vecOf x12) x13 (vecOf x14) x15 (vecOf x16) x17 x18 (vecOf x19) := by
  funext i
  obtain ⟨p, q, rfl⟩ : ∃ (p : Fin 100000) (q : Fin 128), i = ix2 p q := ⟨i 0, i 1, eq_ix2 i⟩
  rw [val_main_v103_apply, val_main_v100_apply, val_main_v102_apply, val_main_v101_apply]
  simp only [l_v100, r_v100, b_v102, hid_eq]
  rfl

end Cert.ReferenceIdeal.RefValue

end
-- ==== Proof.KernelValue.lean ====
/-
  The idealized kernel's result as the reference's term of the arguments.

  The last region leaves, in the result array, `fuseArr` of the arrays it finds: the transformed target features, the
  three neighbourhood means, six weight matrices and five biases.  Each of these is the reference's own term of the
  launched arguments, and the reference's result is the same `fuseArr` of them.
-/
import proofs.«150432_j85822036509302_1_alg».proof.Proof.KernelHost
import proofs.«150432_j85822036509302_1_alg».proof.Proof.Region2
import proofs.«150432_j85822036509302_1_alg».proof.Proof.RefFuse

set_option maxRecDepth 16384

noncomputable section

namespace Cert.KernelIdeal.Hand

open Cert.KernelIdeal Cert.KernelIdeal.Gen Cert.Rows
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The result -/

set_option maxHeartbeats 8000000 in
/-- The result array at the return, as the reference's own term: `fuseArr` of the transformed target features,
    the three neighbourhood means, the weights and the biases is the reference's result (`result_eq`). -/
theorem kernel_value (c : Dev nD) :
    W6 m ρ c (Proc.devRef .tc main_v70)
      = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W6_arr m ρ c 15).trans ((final2 (V5 m ρ) c).trans ?_)
  show fuseArr (V5 m ρ c main_v1) (V5 m ρ c main_v26) (V5 m ρ c main_v45) (V5 m ρ c main_v64)
    (V5 m ρ c main_arg9) (rowVecOf (V5 m ρ c main_v65)) (V5 m ρ c main_arg11) (rowVecOf (V5 m ρ c main_v66))
    (V5 m ρ c main_arg13) (rowVecOf (V5 m ρ c main_v67)) (V5 m ρ c main_arg15) (rowVecOf (V5 m ρ c main_v68))
    (V5 m ρ c main_arg17) (V5 m ρ c main_arg18) (rowVecOf (V5 m ρ c main_v69)) = _
  rw [at5_v1, at5_v26, at5_v45, at5_v64, at5_arg9, at5_v65, at5_arg11, at5_v66, at5_arg13, at5_v67, at5_arg15, at5_v68,
    at5_arg17, at5_arg18, at5_v69]
  exact (Cert.ReferenceIdeal.RefValue.result_eq _ _ _ _ _ _ _ _ _ _ _ _ _ _ _ _ _ _ _ _).symm

end Cert.KernelIdeal.Hand

end
-- ==== Proof.lean ====
/-
  Two programs for one layer of a heterogeneous graph network, equal on exact values.

  The layer transforms the target and context node features (`relu (x · W + b)`, 128 features), takes for every
  target node the mean of its neighbours' features along three kinds of edges (a gather along the edges, a
  scatter-addition into the destination nodes, a division by the clamped in-degree), and combines the node's own row
  with the three means through six more 128 × 128 linear layers, a skip connection, a rectifier and an output layer.
  The kernel runs the dense parts on the TensorCore in blocks of 2000 rows (two regions for the input transforms, one
  fused region for everything after the means) and leaves the means to host operations; the reference is host
  operations throughout.

  On exact values (floats as extended reals, every change of float format the identity) the two agree entry by
  entry, with no algebra beyond reading a matrix product as a sum over the 128 features: every dense step is
  row-wise, so entry `(p, q)` of a region's output is the row function (`Rows.preRow`, `Rows.fuseRow`) of row `p` of
  its operands (`Region0` … `Region2`, over `Payload`), the blocks of 2000 rows cover every row, and the reference's
  whole-matrix operations read at `(p, q)` are the same row functions (`RefPre`, `RefFuse`).  The neighbourhood means
  are the same operations in the same order in both programs, applied to equal arrays, and are never opened
  (`KernelValue`).  The same literals (0 and 1/2) appear on both sides and are never evaluated; the precondition is
  not used.  The frames of the two kernel programs are the generated ones; the reference's frame is its run with the
  result dropped; the idealization rewrote nothing, so there is nothing to preserve.
-/
import proofs.«150432_j85822036509302_1_alg».proof.Defs
import proofs.«150432_j85822036509302_1_alg».proof.Proof.Gen.Kernel
import proofs.«150432_j85822036509302_1_alg».proof.Proof.Gen.Kernel.Skeleton
import proofs.«150432_j85822036509302_1_alg».proof.Proof.Gen.Kernel.Launch
import proofs.«150432_j85822036509302_1_alg».proof.Proof.Gen.Kernel.Points
import proofs.«150432_j85822036509302_1_alg».proof.Proof.Gen.Kernel.Frame
import proofs.«150432_j85822036509302_1_alg».proof.Proof.Gen.KernelIdeal
import proofs.«150432_j85822036509302_1_alg».proof.Proof.Gen.KernelIdeal.Skeleton
import proofs.«150432_j85822036509302_1_alg».proof.Proof.Gen.KernelIdeal.Launch
import proofs.«150432_j85822036509302_1_alg».proof.Proof.Gen.KernelIdeal.Points
import proofs.«150432_j85822036509302_1_alg».proof.Proof.Gen.KernelIdeal.Frame
import proofs.«150432_j85822036509302_1_alg».proof.Proof.Gen.ReferenceIdeal
import proofs.«150432_j85822036509302_1_alg».proof.Proof.Gen.Pre_finite_inputs
import proofs.«150432_j85822036509302_1_alg».proof.Proof.Gen.ReferenceIdeal.Run
import proofs.«150432_j85822036509302_1_alg».proof.Proof.Gen.ReferenceIdeal.Read
import proofs.«150432_j85822036509302_1_alg».proof.Proof.KernelRun
import proofs.«150432_j85822036509302_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's result term of the (agreeing) arguments in their result
    array: the kernel by following its buffers through the three regions, the reference by its run. -/
theorem algebraic : Cert.algebraic_KernelIdeal_ReferenceIdeal := by
  intro m ρ m' ρ' _ hagree
  refine ⟨fun c => Cert.ReferenceIdeal.Read.val_main_v103 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Hand.kernel_value m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.Read.val_main_v103_eq, h0, h1, h2, h3, h4, h5, h6, h7, h8, h9, h10, h11, h12, h13, h14, h15, h16, h17, h18, h19]

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
